-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x64 : Shape := ⟨2, ![256, 64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_

variable [Facts]

def fn {F : FTy → Type} [FloatOps F] (main_arg0 : FVec F S100000x256 .f32) (main_arg1 : IVec S2x1600000 32) (main_arg2 : FVec F S256x64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg2
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  main_v8
-- ==== Kernel.lean ====
abbrev S100000x256 : Shape := ⟨2, ![100000, 256]⟩
abbrev S2x1600000 : Shape := ⟨2, ![2, 1600000]⟩
abbrev S256x64 : Shape := ⟨2, ![256, 64]⟩
abbrev S100000x64 : Shape := ⟨2, ![100000, 64]⟩
abbrev S10000x256 : Shape := ⟨2, ![10000, 256]⟩
abbrev S10000x64 : Shape := ⟨2, ![10000, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩

abbrev nBuf : Space → Nat
  | .hbm => 22
  | .vmem => 9
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x64, .f32⟩
  | .hbm, ⟨3, _⟩ => ⟨S100000x64, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x64, .f32⟩
  | .hbm, ⟨17, _⟩ => ⟨S_, .f32⟩
  | .hbm, ⟨18, _⟩ => ⟨S100000x64, .f32⟩
  | .hbm, ⟨19, _⟩ => ⟨S1600000x1, .i32⟩
  | .hbm, ⟨20, _⟩ => ⟨S100000x64, .f32⟩
  | .hbm, ⟨21, _⟩ => ⟨S100000x64, .f32⟩
  | .local _ .vmem, ⟨0, _⟩ => ⟨S10000x256, .f32⟩
  | .local _ .vmem, ⟨1, _⟩ => ⟨S10000x256, .f32⟩
  | .local _ .vmem, ⟨2, _⟩ => ⟨S256x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  inb_S10000x256_S10000x256_0_0 : ∀ a, (![0, 0] : Fin 2 → Nat) a + S10000x256.size a ≤ S10000x256.size a
  h_S10000x256 : 0 < S10000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S10000x64_S10000x64_0_0 : ∀ a, (![0, 0] : Fin 2 → Nat) a + S10000x64.size a ≤ S10000x64.size a
  h_S10000x64 : 0 < S10000x64.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  shapeCasts_S10000x64_S10000x64 : S10000x64.ShapeCasts S10000x64
  dot_S10000x256_S256x64_S10000x64_1_0_0_1_n_n_wf : DotDims.WF S10000x256 S256x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S100000x256.size a
  hwx0_0 : ∀ i : grid0.Coords, EltTy.bits .f32 = 32 ∨ (Rect.block (s := S100000x256) S10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)

variable [Facts₀]

def dot_S10000x256_S256x64_S10000x64_1_0_0_1_n_n : DotDims S10000x256 S256x64 S10000x64 where
  lhsContracting := [1]
  rhsContracting := [0]
  lhsNonContracting := [0]
  rhsNonContracting := [1]
  lhsBatch := []
  rhsBatch := []
  wf := dot_S10000x256_S256x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v14) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S10000x64.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x64 : Shape := ⟨2, ![256, 64]⟩
abbrev S100000x64 : Shape := ⟨2, ![100000, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩

abbrev nBuf : Space → Nat
  | .hbm => 29
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x64, .f32⟩
  | .hbm, ⟨3, _⟩ => ⟨S100000x64, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x64, .f32⟩
  | .hbm, ⟨17, _⟩ => ⟨S_, .f32⟩
  | .hbm, ⟨18, _⟩ => ⟨S100000x64, .f32⟩
  | .hbm, ⟨19, _⟩ => ⟨S1600000x1, .i32⟩
  | .hbm, ⟨20, _⟩ => ⟨S100000x64, .f32⟩
  | .hbm, ⟨21, _⟩ => ⟨S100000x64, .f32⟩
  | .hbm, ⟨22, _⟩ => ⟨S100000x64, .f32⟩
  | .hbm, ⟨23, _⟩ => ⟨S_, .f32⟩
  | .hbm, ⟨24, _⟩ => ⟨S100000x64, .f32⟩
  | .hbm, ⟨25, _⟩ => ⟨S100000x64, .f32⟩
  | .hbm, ⟨26, _⟩ => ⟨S_, .f32⟩
  | .hbm, ⟨27, _⟩ => ⟨S100000x64, .f32⟩
  | .hbm, ⟨28, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  dot_S100000x256_S256x64_S100000x64_1_0_0_1_n_n_wf : DotDims.WF S100000x256 S256x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KernelRun.lean ====
/-
  The kernel's program runs as three segments — the projection kernel, the host operations of the neighbourhood
  sum, the activation kernel — and every unscoped buffer of a core ends at the contents the last segment leaves.
  Read at the result buffer as well as at the three arguments: every weakly fair execution terminates, nothing
  faulting, with the result buffer at the last boundary's contents and the arguments as launched.
-/
import proofs.«144869_j59081570123779_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the three segments, with the result buffer read at the last boundary's contents. -/
theorem run_result : θ_run defs (onTc (τ := τ) (main (F := F))) ⟨m, fun _ => 0, ρ⟩ (fun r => ∀ c : Dev nD,
      r.2.mem ((c.tc : Thread nD τ).loc main_v15) = W3 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v15 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

end Cert.KernelIdeal.Hand

end
-- ==== Proof.Spec.lean ====
/-
  What the layer computes, as functions on the extended reals over the literal shapes: the dense projection
  of the node features (100000 nodes, 256 features) by the weight matrix (256 by 64), entry by entry a sum of
  256 products, and the logistic function applied entrywise. Both programs gather rows of the projection
  along the edges' source nodes and add them into the edges' target nodes by the same host operations; that
  part is carried as one function and never opened, so it is not spelt here.
-/
import Idealize.ShloMosaic.PureOps.Ideal
import Idealize.ShloMosaic.Lib.ValueIdx

noncomputable section

namespace Cert.Spec

open Idealize.ShloMosaic Idealize.ShloMosaic.ValueIdx

/-- Node features: one row of 256 numbers per node. -/
abbrev Feat : Shape := ⟨2, ![100000, 256]⟩
/-- The weight matrix. -/
abbrev Wgt : Shape := ⟨2, ![256, 64]⟩
/-- Projected features: one row of 64 numbers per node. -/
abbrev Emb : Shape := ⟨2, ![100000, 64]⟩

/-- The projection `A · W`: entry `(r, q)` is the sum over the 256 features `k` of `A[r, k] · W[k, q]`. -/
def proj (A : Feat.Idx → EReal) (W : Wgt.Idx → EReal) : Emb.Idx → EReal :=
  fun i => ∑ k : Fin 256, A (ix2 (⟨(i 0).val, idx2_lt0 i⟩ : Fin 100000) k) * W (ix2 k (⟨(i 1).val, idx2_lt1 i⟩ : Fin 64))

theorem proj_apply (A : Feat.Idx → EReal) (W : Wgt.Idx → EReal) (r : Fin 100000) (q : Fin 64) :
    proj A W (ix2 r q) = ∑ k : Fin 256, A (ix2 r k) * W (ix2 k q) := rfl

/-- The logistic function `1 / (1 + e^(-x))` applied to every entry. -/
def sigmoid (x : Emb.Idx → EReal) : Emb.Idx → EReal := fun i => Ideal.logistic (x i)

/-- The single-precision pattern of one denotes the number one. -/
theorem one_f32 : Ideal.ofBits .f32 0x3F800000#32 = 1 := by
  simp [Ideal.ofBits, Ideal.ieee, -EReal.coe_mul]; norm_num

/-- The quotient `1 / (1 + e^(-x))` spelt with negation, exponential, sum and division is the logistic function at
    every extended real: at `-∞` both are `0`, at `+∞` both are `1`. -/
theorem logistic_expansion (x : EReal) :
    Ideal.div (Ideal.ofBits .f32 0x3F800000#32) (Ideal.ofBits .f32 0x3F800000#32 + Ideal.exp (-x)) = Ideal.logistic x := by
  rw [one_f32]; rfl

end Cert.Spec

end
-- ==== Proof.MatmulBlock.lean ====
/-
  One grid step of the projection kernel multiplies a block of 10000 node rows by the whole weight matrix on the
  matrix unit, after narrowing both operands to bfloat16 and starting from a zero accumulator. On the extended
  reals the narrowing is the identity and the accumulator contributes nothing, so entry `(p, q)` of the block's
  result is the sum over the 256 features `k` of `x[p, k] · w[k, q]`.
-/
import proofs.«144869_j59081570123779_2_alg».proof.Proof.Gen.KernelIdeal.Skeleton
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.ValueIdx

/-- The block product's dimensions: rows of the left operand against columns of the right, contracting the
    left's second axis with the right's first. -/
abbrev blockDot : DotDims S10000x256 S256x64 S10000x64 := dot_S10000x256_S256x64_S10000x64_1_0_0_1_n_n

/-- The left operand is read in the output's row, -/
theorem blockDot_lhs_row (i : S10000x64.Idx) (s : blockDot.contr.Idx) : (blockDot.lhsIdx i s 0).val = (i 0).val := by
  unfold DotDims.lhsIdx
  rw [dif_neg (show ¬(0 : Fin S10000x256.rank) ∈ blockDot.lhsBatch by decide),
    dif_pos (show (0 : Fin S10000x256.rank) ∈ blockDot.lhsNonContracting by decide)]
  rfl
/-- at the contracted feature; -/
theorem blockDot_lhs_col (i : S10000x64.Idx) (s : blockDot.contr.Idx) : (blockDot.lhsIdx i s 1).val = (s ⟨0, by decide⟩).val :=
  blockDot.lhsIdx_val_of_single rfl i s
/-- the right operand at the contracted feature, -/
theorem blockDot_rhs_row (i : S10000x64.Idx) (s : blockDot.contr.Idx) : (blockDot.rhsIdx i s 0).val = (s ⟨0, by decide⟩).val :=
  blockDot.rhsIdx_val_of_single rfl i s
/-- in the output's column. -/
theorem blockDot_rhs_col (i : S10000x64.Idx) (s : blockDot.contr.Idx) : (blockDot.rhsIdx i s 1).val = (i 1).val := by
  unfold DotDims.rhsIdx
  rw [dif_neg (show ¬(1 : Fin S256x64.rank) ∈ blockDot.rhsBatch by decide),
    dif_pos (show (1 : Fin S256x64.rank) ∈ blockDot.rhsNonContracting by decide)]
  rfl

/-- Entry `(p, q)` of what one grid step stores: the sum over the features `k` of `x[p, k] · w[k, q]`. -/
theorem block_product (x : Vec Ideal S10000x256 .f32) (w : Vec Ideal S256x64 .f32) (p : Fin 10000) (q : Fin 64) :
    k0_pay1 x w (ix2 p q) = ∑ k : Fin 256, x (ix2 p k) * w (ix2 k q) := by
  unfold k0_pay1
  simp only [matmul]
  rw [Ideal.matmul_constant_zero_apply, ← Equiv.sum_comp (contrEquiv1 blockDot 256 rfl rfl).symm]
  refine Finset.sum_congr rfl fun k _ => ?_
  have hk := contrEquiv1_symm_val blockDot 256 rfl rfl k
  have el : blockDot.lhsIdx (ix2 p q) ((contrEquiv1 blockDot 256 rfl rfl).symm k) = ix2 p k := funext fun a => Fin.ext (by
    match a with
    | ⟨0, _⟩ => exact blockDot_lhs_row _ _
    | ⟨1, _⟩ => exact (blockDot_lhs_col _ _).trans hk)
  have er : blockDot.rhsIdx (ix2 p q) ((contrEquiv1 blockDot 256 rfl rfl).symm k) = ix2 k q := funext fun a => Fin.ext (by
    match a with
    | ⟨0, _⟩ => exact (blockDot_rhs_row _ _).trans hk
    | ⟨1, _⟩ => exact blockDot_rhs_col _ _)
  rw [truncf_apply, truncf_apply, el, er]

end Cert.KernelIdeal.Hand

end
-- ==== Proof.ProjArray.lean ====
/-
  The projection kernel's result array. Its grid has ten steps; step `t` reads rows `10000 t … 10000 t + 9999`
  of the node features and the whole weight matrix, and writes rows `10000 t … 10000 t + 9999` of the result.
  Entry `(p, q)` of the block it writes is the sum over the features of `x[p, k] · w[k, q]`, which is entry
  `(10000 t + p, q)` of the projection; the ten row blocks cover the array, the block that holds row `r` being
  block `r / 10000`. So after the kernel the array is the projection of the two arrays the kernel found.
  Stated for any contents `V` of the buffers at the kernel's entry.
-/
import proofs.«144869_j59081570123779_2_alg».proof.Proof.Gen.KernelIdeal.Frame
import proofs.«144869_j59081570123779_2_alg».proof.Proof.Spec
import proofs.«144869_j59081570123779_2_alg».proof.Proof.MatmulBlock
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the grid: the feature window and the result window sit at row block `t`, column block
    `0`; the weight window at block `(0, 0)`. -/
theorem proj_index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry `(p, k)` of the feature block at step `t` is entry `(10000 t + p, k)` of the feature array. -/
theorem feat_block_apply (c : Dev nD) (t : Fin cfg0.N) (p : Fin 10000) (k : Fin 256) (r : Fin 100000)
    (hr : r.val = t.val * 10000 + p.val) :
    (iblk0 V c 0 t : Vec Ideal S10000x256 .f32) (ix2 p k) = (V c main_arg0 : S100000x256.Idx → EReal) (ix2 r k) := by
  obtain ⟨e0, e1, -, -, -, -⟩ := proj_index_maps t
  unfold iblk0
  rw [View.read_apply]
  show (V c main_arg0 : S100000x256.Idx → EReal) _ = _
  refine congrArg _ (funext fun a => Fin.ext ?_)
  match a with
  | ⟨0, _⟩ => show win0_0.index t (0 : Fin 2) * 10000 + 1 * p.val = r.val; omega
  | ⟨1, _⟩ => show win0_0.index t (1 : Fin 2) * 256 + 1 * k.val = k.val; omega

/-- The weight block at every step is the weight array. -/
theorem wgt_block_apply (c : Dev nD) (t : Fin cfg0.N) (k : Fin 256) (q : Fin 64) :
    (iblk0 V c 1 t : Vec Ideal S256x64 .f32) (ix2 k q) = (V c main_arg2 : S256x64.Idx → EReal) (ix2 k q) := by
  obtain ⟨-, -, e2, e3, -, -⟩ := proj_index_maps t
  unfold iblk0
  rw [View.read_apply]
  show (V c main_arg2 : S256x64.Idx → EReal) _ = _
  refine congrArg _ (funext fun a => Fin.ext ?_)
  match a with
  | ⟨0, _⟩ => show win0_1.index t (0 : Fin 2) * 256 + 1 * k.val = k.val; omega
  | ⟨1, _⟩ => show win0_1.index t (1 : Fin 2) * 64 + 1 * q.val = q.val; omega

/-- What step `t` writes back is block `t` of the projection of the two arrays. -/
theorem proj_flushed (c : Dev nD) (t : Fin cfg0.N) :
    (dat0 V c).flushed 2 t = ((cfg0.win 2).blk t).view.read (Elt Ideal) (Spec.proj (V c main_arg0) (V c main_arg2)) := by
  show (cfg0.win 2).cut (grid0.coords t) ((dat0 V c).after 2 t) = _
  rw [after0_2]
  unfold out0_2
  rw [View.canon_unit_zero zero_offsets]
  simp only [View.ld_unit_zero (S := S10000x256) zero_offsets, View.ld_unit_zero (S := S256x64) zero_offsets]
  obtain ⟨-, -, -, -, e4, e5⟩ := proj_index_maps t
  funext j
  obtain ⟨p, q, rfl⟩ : ∃ (p : Fin 10000) (q : Fin 64), j = ix2 p q := ⟨j 0, j 1, eq_ix2 j⟩
  have hN : grid0.N = 10 := N_0
  have ht : t.val < 10 := hN ▸ t.isLt
  have hp : p.val < 10000 := p.isLt
  have hrow : t.val * 10000 + p.val < 100000 := by omega
  have hemb : ((cfg0.win 2).blk t).view.emb (ix2 p q) = (ix2 (⟨t.val * 10000 + p.val, hrow⟩ : Fin 100000) q : S100000x64.Idx) :=
    funext fun a => Fin.ext (by
      match a with
      | ⟨0, _⟩ => show win0_2.index t (0 : Fin 2) * 10000 + 1 * p.val = t.val * 10000 + p.val; omega
      | ⟨1, _⟩ => show win0_2.index t (1 : Fin 2) * 64 + 1 * q.val = q.val; omega)
  show k0_pay1 (iblk0 V c 0 t) (iblk0 V c 1 t) (ix2 p q) = Spec.proj (V c main_arg0) (V c main_arg2) (((cfg0.win 2).blk t).view.emb (ix2 p q))
  rw [hemb, Spec.proj_apply, block_product]
  refine Finset.sum_congr rfl fun k _ => ?_
  rw [feat_block_apply V c t p k ⟨t.val * 10000 + p.val, hrow⟩ rfl, wgt_block_apply V c t k q]

/-- Index `i` of the result array is in step `t`'s block exactly when its row is among that block's rows (the
    block spans every column). -/
theorem proj_mem_block (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v0).slice (win0_2.rect t)).set ↔ _
  rw [View.set_slice_whole, Rect.mem_set_unit]
  exact Iff.rfl

/-- Every index of the result array is written: row `r` by step `r / 10000`. -/
theorem proj_cover (i : S100000x64.Idx) :
    ∃ t : Fin cfg0.N, (cfg0.win 2).flush t = true ∧ i ∈ ((cfg0.win 2).blk t).view.set := by
  have hN : grid0.N = 10 := N_0
  have hi0 : (i 0).val < 100000 := (i 0).isLt
  have hi1 : (i 1).val < 64 := (i 1).isLt
  have htN : (i 0).val / 10000 < grid0.N := by rw [hN]; omega
  refine ⟨⟨(i 0).val / 10000, htN⟩, flush0_2 _, ?_⟩
  obtain ⟨-, -, -, -, e4, e5⟩ := proj_index_maps ⟨(i 0).val / 10000, htN⟩
  rw [proj_mem_block]
  intro a
  match a with
  | ⟨0, _⟩ =>
    show win0_2.index ⟨(i 0).val / 10000, htN⟩ (0 : Fin 2) * 10000 ≤ (i 0).val ∧ (i 0).val < win0_2.index ⟨(i 0).val / 10000, htN⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, htN⟩ (1 : Fin 2) * 64 ≤ (i 1).val ∧ (i 1).val < win0_2.index ⟨(i 0).val / 10000, htN⟩ (1 : Fin 2) * 64 + 64
    rw [e5]; omega

/-- After the projection kernel its result array is the projection of the feature and weight arrays it found. -/
theorem proj_array (c : Dev nD) :
    (dat0 V c).arrAt 2 cfg0.N = Spec.proj (V c main_arg0) (V c main_arg2) :=
  (dat0 V c).arrAt_eq_of_cover 2 (Spec.proj (V c main_arg0) (V c main_arg2)) (fun t _ => proj_flushed V c t) proj_cover

end Cert.KernelIdeal.Hand

end
-- ==== Proof.SigmoidBlock.lean ====
/-
  One grid step of the activation kernel applies the logistic function to every entry of a block of 10000 rows
  (the reshape in front of it is to the same shape, so it moves nothing).
-/
import proofs.«144869_j59081570123779_2_alg».proof.Proof.Gen.KernelIdeal.Skeleton
import Idealize.ShloMosaic.Lib.Pipeline.Value
import Idealize.ShloMosaic.PureOps.Ideal

noncomputable section

namespace Cert.KernelIdeal.Hand

open Cert.KernelIdeal Cert.KernelIdeal.Gen Idealize.ShloMosaic

/-- Entry `y` of what one grid step stores is the logistic function of entry `y` of what it loaded. -/
theorem block_logistic (x : Vec Ideal S10000x64 .f32) (y : S10000x64.Idx) :
    k1_pay1 x y = Ideal.logistic (x y) := by
  unfold k1_pay1
  rw [shapeCast_self]
  rfl

end Cert.KernelIdeal.Hand

end
-- ==== Proof.SigmoidArray.lean ====
/-
  The activation kernel's result array. Its grid has ten steps; step `t` reads rows `10000 t … 10000 t + 9999`
  of its operand and writes the same rows of its result, each entry the logistic function of the operand's entry.
  The ten row blocks cover the array, so after the kernel the result array is the logistic function of the operand
  array entry by entry. Stated for any contents `V` of the buffers at the kernel's entry.
-/
import proofs.«144869_j59081570123779_2_alg».proof.Proof.Gen.KernelIdeal.Frame
import proofs.«144869_j59081570123779_2_alg».proof.Proof.Spec
import proofs.«144869_j59081570123779_2_alg».proof.Proof.SigmoidBlock
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets' : (![0, 0] : Fin 2 → Nat) = fun _ => 0 := funext fun a => by fin_cases a <;> rfl

/-- The index maps over the grid: the operand window and the result window both sit at row block `t`, column
    block `0`. -/
theorem act_index_maps : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- What step `t` writes back is block `t` of the entrywise logistic function of the operand array. -/
theorem act_flushed (c : Dev nD) (t : Fin cfg1.N) :
    (dat1 V c).flushed 1 t = ((cfg1.win 1).blk t).view.read (Elt Ideal) (Spec.sigmoid (V c main_v14)) := by
  show (cfg1.win 1).cut (grid1.coords t) ((dat1 V c).after 1 t) = _
  rw [after1_1]
  unfold out1_1
  rw [View.canon_unit_zero zero_offsets']
  simp only [View.ld_unit_zero (S := S10000x64) zero_offsets']
  obtain ⟨e0, e1, e2, e3⟩ := act_index_maps t
  funext j
  show k1_pay1 (iblk1 V c 0 t) j = Spec.sigmoid (V c main_v14) (((cfg1.win 1).blk t).view.emb j)
  rw [block_logistic]
  unfold Spec.sigmoid iblk1
  rw [View.read_apply]
  show Ideal.logistic ((V c main_v14 : S100000x64.Idx → EReal) (((cfg1.win 0).blk t).view.emb j)) = Ideal.logistic ((V c main_v14 : S100000x64.Idx → EReal) (((cfg1.win 1).blk t).view.emb j))
  refine congrArg (fun z => Ideal.logistic ((V c main_v14 : S100000x64.Idx → EReal) z)) (funext fun a => Fin.ext ?_)
  match a with
  | ⟨0, _⟩ => show win1_0.index t (0 : Fin 2) * 10000 + 1 * (j 0).val = win1_1.index t (0 : Fin 2) * 10000 + 1 * (j 0).val; omega
  | ⟨1, _⟩ => show win1_0.index t (1 : Fin 2) * 64 + 1 * (j 1).val = win1_1.index t (1 : Fin 2) * 64 + 1 * (j 1).val; omega

/-- Index `i` of the result array is in step `t`'s block exactly when its row is among that block's rows. -/
theorem act_mem_block (t : Fin cfg1.N) (i : S100000x64.Idx) :
    i ∈ ((cfg1.win 1).blk t).view.set ↔ ∀ a : Fin 2, win1_1.index t a * S10000x64.size a ≤ (i a).val ∧ (i a).val < win1_1.index t a * S10000x64.size a + S10000x64.size a := by
  show i ∈ ((View.whole main_v15).slice (win1_1.rect t)).set ↔ _
  rw [View.set_slice_whole, Rect.mem_set_unit]
  exact Iff.rfl

/-- Every index of the result array is written: row `r` by step `r / 10000`. -/
theorem act_cover (i : S100000x64.Idx) :
    ∃ t : Fin cfg1.N, (cfg1.win 1).flush t = true ∧ i ∈ ((cfg1.win 1).blk t).view.set := by
  have hN : grid1.N = 10 := N_1
  have hi0 : (i 0).val < 100000 := (i 0).isLt
  have hi1 : (i 1).val < 64 := (i 1).isLt
  have htN : (i 0).val / 10000 < grid1.N := by rw [hN]; omega
  refine ⟨⟨(i 0).val / 10000, htN⟩, flush1_1 _, ?_⟩
  obtain ⟨-, -, e2, e3⟩ := act_index_maps ⟨(i 0).val / 10000, htN⟩
  rw [act_mem_block]
  intro a
  match a with
  | ⟨0, _⟩ =>
    show win1_1.index ⟨(i 0).val / 10000, htN⟩ (0 : Fin 2) * 10000 ≤ (i 0).val ∧ (i 0).val < win1_1.index ⟨(i 0).val / 10000, htN⟩ (0 : Fin 2) * 10000 + 10000
    rw [e2]; show (i 0).val / 10000 * 10000 ≤ (i 0).val ∧ (i 0).val < (i 0).val / 10000 * 10000 + 10000; omega
  | ⟨1, _⟩ =>
    show win1_1.index ⟨(i 0).val / 10000, htN⟩ (1 : Fin 2) * 64 ≤ (i 1).val ∧ (i 1).val < win1_1.index ⟨(i 0).val / 10000, htN⟩ (1 : Fin 2) * 64 + 64
    rw [e3]; omega

/-- After the activation kernel its result array is the entrywise logistic function of the operand array it found. -/
theorem act_array (c : Dev nD) :
    (dat1 V c).arrAt 1 cfg1.N = Spec.sigmoid (V c main_v14) :=
  (dat1 V c).arrAt_eq_of_cover 1 (Spec.sigmoid (V c main_v14)) (fun t _ => act_flushed V c t) act_cover

end Cert.KernelIdeal.Hand

end
-- ==== Proof.Aggregate.lean ====
/-
  The neighbourhood sum. From the projected features `x` (one row of 64 numbers per node) and the edge list `e`
  (row 0 the edges' target nodes, row 1 their source nodes): take the source row of `e`, add 100000 to every
  negative source (an index counted from the end), gather the rows of `x` at those sources — one row per edge —
  and add each gathered row into the row of a zero array named by the edge's target. The kernel's program and
  the reference apply exactly these operations between the projection and the activation, so the certificate
  carries them as this one function and never opens it.
-/
import proofs.«144869_j59081570123779_2_alg».proof.Proof.Gen.KernelIdeal
import Idealize.ShloMosaic.PureOps.Ideal

noncomputable section

namespace Cert.KernelIdeal.Hand

open Cert.KernelIdeal Cert.KernelIdeal.Facts₀ Idealize.ShloMosaic

/-- Each node's sum, over the edges pointing at it, of the projected features of the edges' sources. -/
def aggregate (x : (⟨S100000x64, .f32⟩ : BufTy).Contents (Elt Ideal)) (e : (⟨S2x1600000, .i32⟩ : BufTy).Contents (Elt Ideal)) :
    (⟨S100000x64, .f32⟩ : BufTy).Contents (Elt Ideal) :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0
      (shapeCast _ (extractStridedSlice S1x1600000 ![0, 0] e slices_S2x1600000_S1x1600000_0_0) shapeCasts_S1x1600000_S1600000))
    (Host.gather gather_S100000x64_S1600000x1_S1600000x64_1_0_n_n_0_1_164 x
      (broadcastInDim S1600000x1 ![0] bcast_S1600000_S1600000x1_0
        (select
          (cmpi .slt (shapeCast _ (extractStridedSlice S1x1600000 ![1, 0] e slices_S2x1600000_S1x1600000_1_0) shapeCasts_S1x1600000_S1600000)
            (broadcastInDim S1600000 ![] bcast_S_S1600000 (constantI S_ 32 0#32)))
          (addi (shapeCast _ (extractStridedSlice S1x1600000 ![1, 0] e slices_S2x1600000_S1x1600000_1_0) shapeCasts_S1x1600000_S1600000)
            (broadcastInDim S1600000 ![] bcast_S_S1600000 (constantI S_ 32 100000#32)))
          (shapeCast _ (extractStridedSlice S1x1600000 ![1, 0] e slices_S2x1600000_S1x1600000_1_0) shapeCasts_S1x1600000_S1600000))))

end Cert.KernelIdeal.Hand

end
-- ==== Proof.HostStretch.lean ====
/-
  Between the two kernels the program runs the host operations of the neighbourhood sum on what the projection
  kernel left. So the activation kernel's operand, when that kernel is entered, is the neighbourhood sum of the
  projection kernel's result array and of the edge list as they stand when the projection kernel returns.
-/
import proofs.«144869_j59081570123779_2_alg».proof.Proof.Gen.KernelIdeal.Frame
import proofs.«144869_j59081570123779_2_alg».proof.Proof.Aggregate
import Idealize.ShloMosaic.Lib.StableHlo.Run

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The activation kernel's operand at its entry is the neighbourhood sum of the projection kernel's result and the
    edge list at the projection kernel's exit. -/
theorem operand_at_entry (c : Dev nD) :
    (V2 m ρ c main_v14 : (⟨S100000x64, .f32⟩ : BufTy).Contents (Elt Ideal))
      = aggregate (V1 m ρ c main_v0) (V1 m ρ c main_arg1) := by
  show StableHlo.after hostOps1 (W1 m ρ c) (Proc.devRef .tc main_v14) = _
  unfold aggregate
  after_results
  rfl

end Cert.KernelIdeal.Hand

end
-- ==== Proof.KernelValue.lean ====
/-
  The kernel's program end to end: its result buffer ends at the logistic function of the neighbourhood sum of the
  projection of the node features by the weights. The last boundary's contents at the result buffer are what
  the activation kernel leaves; its operand is the neighbourhood sum of what the projection kernel left and of the
  edge list, which nothing has written; the projection kernel found the features and the weights as launched.
-/
import proofs.«144869_j59081570123779_2_alg».proof.Proof.KernelRun
import proofs.«144869_j59081570123779_2_alg».proof.Proof.ProjArray
import proofs.«144869_j59081570123779_2_alg».proof.Proof.SigmoidArray
import proofs.«144869_j59081570123779_2_alg».proof.Proof.HostStretch

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The whole layer, as a function of the three argument arrays. -/
def layer (c : Dev nD) : (⟨S100000x64, .f32⟩ : BufTy).Contents (Elt Ideal) :=
  Cert.Spec.sigmoid (aggregate
    (Cert.Spec.proj (m ((c.tc : Thread nD τ).loc main_arg0)) (m ((c.tc : Thread nD τ).loc main_arg2)))
    (m ((c.tc : Thread nD τ).loc main_arg1)))

/-- When the projection kernel returns, its result array is the projection of the launched features and weights, -/
theorem projected_at_exit (c : Dev nD) :
    (V1 m ρ c main_v0 : (⟨S100000x64, .f32⟩ : BufTy).Contents (Elt Ideal))
      = Cert.Spec.proj (m ((c.tc : Thread nD τ).loc main_arg0)) (m ((c.tc : Thread nD τ).loc main_arg2)) :=
  (W1_arr m ρ c 2).trans (proj_array (V0 m ρ) c)

/-- and the edge list is as launched. -/
theorem edges_at_exit (c : Dev nD) :
    (V1 m ρ c main_arg1 : (⟨S2x1600000, .i32⟩ : BufTy).Contents (Elt Ideal)) = m ((c.tc : Thread nD τ).loc main_arg1) :=
  W1_of_ne m ρ c main_arg1 (by decide)

/-- The last boundary's contents at the result buffer are the layer's function of the launched arguments. -/
theorem result_at_end (c : Dev nD) : W3 m ρ c (Proc.devRef .tc main_v15) = layer m c := by
  unfold layer
  rw [← projected_at_exit m ρ c, ← edges_at_exit m ρ c, ← operand_at_entry m ρ c]
  exact (W3_arr m ρ c 1).trans (act_array (V2 m ρ) c)

/-- Every weakly fair execution of the kernel's program terminates with the result buffer at the layer's function of
    the launched arguments, and the arguments unchanged. -/
theorem run : θ_run defs (onTc (τ := τ) (main (F := Ideal))) ⟨m, fun _ => 0, ρ⟩ (fun r => ∀ c : Dev nD,
      r.2.mem ((c.tc : Thread nD τ).loc main_v15) = layer m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (result_at_end m ρ c), (h c).2⟩) (run_result m ρ)

end Cert.KernelIdeal.Hand

end
-- ==== Proof.RefValue.lean ====
/-
  The reference computes the same function: its matrix product is the projection entry by entry (a sum of 256
  products), its gather and scatter-add are the neighbourhood sum, and its `1 / (1 + e^(-x))` is the logistic
  function at every extended real.
-/
import proofs.«144869_j59081570123779_2_alg».proof.Proof.Gen.ReferenceIdeal.Read
import proofs.«144869_j59081570123779_2_alg».proof.Proof.Spec
import proofs.«144869_j59081570123779_2_alg».proof.Proof.Aggregate

noncomputable section

namespace Cert.ReferenceIdeal.RefValue

open Cert.ReferenceIdeal Cert.ReferenceIdeal.Gen Cert.ReferenceIdeal.Read
open Idealize.ShloMosaic Idealize.ShloMosaic.ValueIdx
open Cert.KernelIdeal.Hand (aggregate)

/-- The reference's matrix product is the projection. -/
theorem product_eq (x0 : (⟨S100000x256, .f32⟩ : BufTy).Contents (Elt Ideal)) (x2 : (⟨S256x64, .f32⟩ : BufTy).Contents (Elt Ideal)) :
    val_main_v0 (F := Ideal) x0 x2 = Cert.Spec.proj x0 x2 := by
  funext i
  have hl : ∀ k : Fin 256, lidx_main_v0 i k = ix2 (⟨(i 0).val, idx2_lt0 i⟩ : Fin 100000) k := fun k => funext fun a => Fin.ext (by
    match a with
    | ⟨0, _⟩ => rfl
    | ⟨1, _⟩ => rfl)
  have hr : ∀ k : Fin 256, ridx_main_v0 i k = ix2 k (⟨(i 1).val, idx2_lt1 i⟩ : Fin 64) := fun k => funext fun a => Fin.ext (by
    match a with
    | ⟨0, _⟩ => rfl
    | ⟨1, _⟩ => rfl)
  rw [val_main_v0_apply]
  unfold Cert.Spec.proj
  exact Finset.sum_congr rfl fun k _ => by rw [hl k, hr k]

/-- The reference's gather and scatter-add of its matrix product are the neighbourhood sum of the projection. -/
theorem sum_eq (x0 : (⟨S100000x256, .f32⟩ : BufTy).Contents (Elt Ideal)) (x1 : (⟨S2x1600000, .i32⟩ : BufTy).Contents (Elt Ideal))
    (x2 : (⟨S256x64, .f32⟩ : BufTy).Contents (Elt Ideal)) :
    val_main_v14 (F := Ideal) x0 x1 x2 = aggregate (Cert.Spec.proj x0 x2) x1 := by
  rw [← product_eq]
  rfl

/-- The reference's result is the logistic function of the neighbourhood sum of the projection, entry by entry. -/
theorem result_eq (x0 : (⟨S100000x256, .f32⟩ : BufTy).Contents (Elt Ideal)) (x1 : (⟨S2x1600000, .i32⟩ : BufTy).Contents (Elt Ideal))
    (x2 : (⟨S256x64, .f32⟩ : BufTy).Contents (Elt Ideal)) :
    val_main_v20 (F := Ideal) x0 x1 x2 = Cert.Spec.sigmoid (aggregate (Cert.Spec.proj x0 x2) x1) := by
  funext i
  rw [val_main_v20_apply, val_main_v19_apply, val_main_cst_2_apply, val_main_v18_apply, val_main_v17_apply,
    val_main_cst_1_apply, val_main_v16_apply, val_main_v15_apply, sum_eq]
  simp only [Ideal.hostDivf_def, Ideal.addf_def, Ideal.hostUnary_exp_def, Ideal.hostNegf_def, Ideal.negf_def, Ideal.ofBits_def]
  unfold Cert.Spec.sigmoid
  exact Cert.Spec.logistic_expansion _

end Cert.ReferenceIdeal.RefValue

end
-- ==== Proof.lean ====
/-
  A graph-convolution layer: project the node features by a weight matrix, sum the projected features of each
  node's in-neighbours along the edge list, apply the logistic function. The kernel's program computes the
  projection block by block on the matrix unit (operands narrowed to bfloat16, a zero accumulator) and the
  logistic function block by block in a second kernel; the reference computes one matrix product and spells the
  logistic function as `1 / (1 + e^(-x))`; the neighbourhood sum in between is the same host operations in both.
  On the extended reals the narrowing is the identity, a block of the product is the corresponding rows of the
  whole product (each entry the same sum of 256 products), and the quotient is the logistic function at every
  extended real, infinities included; so the two programs end with the same array. No finiteness of the inputs is
  used. The idealization rewrote no operation, so there is nothing to preserve beyond the program's own text.
-/
import proofs.«144869_j59081570123779_2_alg».proof.Defs
import proofs.«144869_j59081570123779_2_alg».proof.Proof.Gen.Kernel
import proofs.«144869_j59081570123779_2_alg».proof.Proof.Gen.Kernel.Frame
import proofs.«144869_j59081570123779_2_alg».proof.Proof.Gen.KernelIdeal
import proofs.«144869_j59081570123779_2_alg».proof.Proof.Gen.KernelIdeal.Frame
import proofs.«144869_j59081570123779_2_alg».proof.Proof.Gen.ReferenceIdeal
import proofs.«144869_j59081570123779_2_alg».proof.Proof.Gen.ReferenceIdeal.Run
import proofs.«144869_j59081570123779_2_alg».proof.Proof.Gen.ReferenceIdeal.Read
import proofs.«144869_j59081570123779_2_alg».proof.Proof.Gen.Pre_finite_inputs
import proofs.«144869_j59081570123779_2_alg».proof.Proof.KernelValue
import proofs.«144869_j59081570123779_2_alg».proof.Proof.RefValue
import Idealize.ShloMosaic.Adequacy
import Idealize.ShloMosaic.Init

noncomputable section

namespace Cert.Proof

open Idealize.ShloMosaic Idealize.ShloMosaic.TcCoe Idealize.SL.Sem

/-- The kernel's program runs and leaves its arguments as launched. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its arguments as launched: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the three arguments both programs end with the result buffer at the logistic function
    of the neighbourhood sum of the projection of the features by the weights. -/
theorem algebraic : Cert.algebraic_KernelIdeal_ReferenceIdeal := by
  intro m ρ m' ρ' _ hagree
  refine ⟨fun c => Cert.KernelIdeal.Hand.layer m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.RefValue.result_eq,
    (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
